-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16384x4096 .f32) (main_arg1 : FVec F S4096x4096 .f32) (main_arg2 : FVec F S4096 .f32) (main_arg3 : FVec F S64x4096 .f32) (main_arg4 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S1x4096 : Shape := ⟨2, ![1, 4096]⟩
abbrev S1x64 : Shape := ⟨2, ![1, 64]⟩
abbrev S16384x64 : Shape := ⟨2, ![16384, 64]⟩
abbrev S512x4096 : Shape := ⟨2, ![512, 4096]⟩
abbrev S512x64 : Shape := ⟨2, ![512, 64]⟩
abbrev S512x512 : Shape := ⟨2, ![512, 512]⟩
abbrev S4096x512 : Shape := ⟨2, ![4096, 512]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S64, .f32⟩
  | .hbm, ⟨5, _⟩ => ⟨S4096x4096, .bf16⟩
  | .hbm, ⟨6, _⟩ => ⟨S1x4096, .f32⟩
  | .hbm, ⟨7, _⟩ => ⟨S1x64, .f32⟩
  | .hbm, ⟨8, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S4096x4096, .bf16⟩
  | .local _ .vmem, ⟨3, _⟩ => ⟨S1x4096, .f32⟩
  | .local _ .vmem, ⟨4, _⟩ => ⟨S64x4096, .f32⟩
  | .local _ .vmem, ⟨5, _⟩ => ⟨S1x64, .f32⟩
  | .local _ .vmem, ⟨6, _⟩ => ⟨S512x64, .f32⟩
  | .local _ .vmem, ⟨7, _⟩ => ⟨S512x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S4096_S1x4096 : S4096.ShapeCasts S1x4096
  shapeCasts_S64_S1x64 : S64.ShapeCasts S1x64
  inb_S512x4096_S512x512_0_0 : ∀ a, (![0, 0] : Fin 2 → Nat) a + S512x512.size a ≤ S512x4096.size a
  h_S512x512 : 0 < S512x512.numel
  inb_S4096x4096_S4096x512_0_0 : ∀ a, (![0, 0] : Fin 2 → Nat) a + S4096x512.size a ≤ S4096x4096.size a
  h_S4096x512 : 0 < S4096x512.numel
  shapeCasts_S4096x512_S4096x512 : S4096x512.ShapeCasts S4096x512
  inb_S512x4096_S512x512_0_512 : ∀ a, (![0, 512] : Fin 2 → Nat) a + S512x512.size a ≤ S512x4096.size a
  inb_S4096x4096_S4096x512_0_512 : ∀ a, (![0, 512] : Fin 2 → Nat) a + S4096x512.size a ≤ S4096x4096.size a
  inb_S512x4096_S512x512_0_1024 : ∀ a, (![0, 1024] : Fin 2 → Nat) a + S512x512.size a ≤ S512x4096.size a
  inb_S4096x4096_S4096x512_0_1024 : ∀ a, (![0, 1024] : Fin 2 → Nat) a + S4096x512.size a ≤ S4096x4096.size a
  inb_S512x4096_S512x512_0_1536 : ∀ a, (![0, 1536] : Fin 2 → Nat) a + S512x512.size a ≤ S512x4096.size a
  inb_S4096x4096_S4096x512_0_1536 : ∀ a, (![0, 1536] : Fin 2 → Nat) a + S4096x512.size a ≤ S4096x4096.size a
  inb_S512x4096_S512x512_0_2048 : ∀ a, (![0, 2048] : Fin 2 → Nat) a + S512x512.size a ≤ S512x4096.size a
  inb_S4096x4096_S4096x512_0_2048 : ∀ a, (![0, 2048] : Fin 2 → Nat) a + S4096x512.size a ≤ S4096x4096.size a
  inb_S512x4096_S512x512_0_2560 : ∀ a, (![0, 2560] : Fin 2 → Nat) a + S512x512.size a ≤ S512x4096.size a
  inb_S4096x4096_S4096x512_0_2560 : ∀ a, (![0, 2560] : Fin 2 → Nat) a + S4096x512.size a ≤ S4096x4096.size a
  inb_S512x4096_S512x512_0_3072 : ∀ a, (![0, 3072] : Fin 2 → Nat) a + S512x512.size a ≤ S512x4096.size a
  inb_S4096x4096_S4096x512_0_3072 : ∀ a, (![0, 3072] : Fin 2 → Nat) a + S4096x512.size a ≤ S4096x4096.size a
  inb_S512x4096_S512x512_0_3584 : ∀ a, (![0, 3584] : Fin 2 → Nat) a + S512x512.size a ≤ S512x4096.size a
  inb_S4096x4096_S4096x512_0_3584 : ∀ a, (![0, 3584] : Fin 2 → Nat) a + S4096x512.size a ≤ S4096x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S512x512_S4096x512_S512x4096_1_1_0_0_n_n_wf : DotDims.WF S512x512 S4096x512 S512x4096 [1] [1] [0] [0] [] []
  dot_S512x4096_S64x4096_S512x64_1_1_0_0_n_n_wf : DotDims.WF S512x4096 S64x4096 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .f32 = 32 ∨ (Rect.block (s := S64x4096) S64x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S16384x64.size a
  hwx0_5 : ∀ i : grid0.Coords, EltTy.bits .f32 = 32 ∨ (Rect.block (s := S16384x64) S512x64.size (cc0_transform_5 i) (hinb0_5 i)).WholeWords (EltTy.packing .f32)

variable [Facts₀]

def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf
def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S1x4096 : Shape := ⟨2, ![1, 4096]⟩
abbrev S_ : Shape := ⟨0, ![]⟩
abbrev S4096x64 : Shape := ⟨2, ![4096, 64]⟩
abbrev S16384x64 : Shape := ⟨2, ![16384, 64]⟩
abbrev S1x64 : Shape := ⟨2, ![1, 64]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S64, .f32⟩
  | .hbm, ⟨5, _⟩ => ⟨S4096x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S4096x64, .f32⟩
  | .hbm, ⟨14, _⟩ => ⟨S16384x64, .f32⟩
  | .hbm, ⟨15, _⟩ => ⟨S1x64, .f32⟩
  | .hbm, ⟨16, _⟩ => ⟨S16384x64, .f32⟩
  | .hbm, ⟨17, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  transposes_S64x4096_S4096x64_1_0 : S64x4096.Transposes [1, 0] S4096x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x4096_S4096x4096_S16384x4096_1_0_0_1_n_n_wf : DotDims.WF S16384x4096 S4096x4096 S16384x4096 [1] [0] [0] [1] [] []
  dot_S16384x4096_S4096x64_S16384x64_1_0_0_1_n_n_wf : DotDims.WF S16384x4096 S4096x64 S16384x64 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.Products.lean ====
/-
  The kernel's two matrix products, each read at one element.

  Both contract the LAST axis of both operands (rows against rows) into a zero accumulator: the element at (r, c) is the
  sum over the contracted coordinate k of lhs(r, k) · rhs(c, k). On the extended reals the accumulator's zero adds
  nothing, and the product's sum is re-indexed from the one-axis contraction index to its coordinate.
-/
import proofs.«107676_g90228672954960_cont_9to1c4b_381_14_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Products

open Cert.KernelIdeal Cert.KernelIdeal.Gen Idealize.ShloMosaic Idealize.ShloMosaic.ValueIdx
/-! ## The two matrix products read at an element -/

theorem runDot_lhs0 (i : S512x4096.Idx) (q : dot_S512x512_S4096x512_S512x4096_1_1_0_0_n_n.contr.Idx) : (dot_S512x512_S4096x512_S512x4096_1_1_0_0_n_n.lhsIdx i q 0).val = (i 0).val := by
  unfold DotDims.lhsIdx
  rw [dif_neg (show ¬(0 : Fin S512x512.rank) ∈ dot_S512x512_S4096x512_S512x4096_1_1_0_0_n_n.lhsBatch by decide), dif_pos (show (0 : Fin S512x512.rank) ∈ dot_S512x512_S4096x512_S512x4096_1_1_0_0_n_n.lhsNonContracting by decide)]
  rfl
theorem runDot_lhs1 (i : S512x4096.Idx) (q : dot_S512x512_S4096x512_S512x4096_1_1_0_0_n_n.contr.Idx) : (dot_S512x512_S4096x512_S512x4096_1_1_0_0_n_n.lhsIdx i q 1).val = (q ⟨0, by decide⟩).val :=
  dot_S512x512_S4096x512_S512x4096_1_1_0_0_n_n.lhsIdx_val_of_single rfl i q
theorem runDot_rhs0 (i : S512x4096.Idx) (q : dot_S512x512_S4096x512_S512x4096_1_1_0_0_n_n.contr.Idx) : (dot_S512x512_S4096x512_S512x4096_1_1_0_0_n_n.rhsIdx i q 0).val = (i 1).val := by
  unfold DotDims.rhsIdx
  rw [dif_neg (show ¬(0 : Fin S4096x512.rank) ∈ dot_S512x512_S4096x512_S512x4096_1_1_0_0_n_n.rhsBatch by decide), dif_pos (show (0 : Fin S4096x512.rank) ∈ dot_S512x512_S4096x512_S512x4096_1_1_0_0_n_n.rhsNonContracting by decide)]
  rfl
theorem runDot_rhs1 (i : S512x4096.Idx) (q : dot_S512x512_S4096x512_S512x4096_1_1_0_0_n_n.contr.Idx) : (dot_S512x512_S4096x512_S512x4096_1_1_0_0_n_n.rhsIdx i q 1).val = (q ⟨0, by decide⟩).val :=
  dot_S512x512_S4096x512_S512x4096_1_1_0_0_n_n.rhsIdx_val_of_single rfl i q

/-- One run's product: row `r` of a [512, 512] run of features against row `j` of the [4096, 512] run of weights. -/
theorem runDot_apply (a : FVec Ideal S512x512 .bf16) (w : FVec Ideal S4096x512 .bf16) (r : Fin 512) (j : Fin 4096) :
    matmul dot_S512x512_S4096x512_S512x4096_1_1_0_0_n_n none a w (constant (F := Ideal) S512x4096 .f32 0x00000000#32) (ix2 r j)
      = ∑ k : Fin 512, a (ix2 r k) * w (ix2 j k) := by
  refine (Ideal.matmul_constant_zero_apply dot_S512x512_S4096x512_S512x4096_1_1_0_0_n_n none a w (ix2 r j)).trans ?_
  rw [← Equiv.sum_comp (contrEquiv1 dot_S512x512_S4096x512_S512x4096_1_1_0_0_n_n 512 rfl rfl).symm]
  refine Finset.sum_congr rfl fun k _ => ?_
  have hk := contrEquiv1_symm_val dot_S512x512_S4096x512_S512x4096_1_1_0_0_n_n 512 rfl rfl k
  have el : dot_S512x512_S4096x512_S512x4096_1_1_0_0_n_n.lhsIdx (ix2 r j) ((contrEquiv1 dot_S512x512_S4096x512_S512x4096_1_1_0_0_n_n 512 rfl rfl).symm k) = ix2 r k := funext fun ax => Fin.ext (by
    match ax with
    | ⟨0, _⟩ => exact runDot_lhs0 _ _
    | ⟨1, _⟩ => exact (runDot_lhs1 _ _).trans hk)
  have er : dot_S512x512_S4096x512_S512x4096_1_1_0_0_n_n.rhsIdx (ix2 r j) ((contrEquiv1 dot_S512x512_S4096x512_S512x4096_1_1_0_0_n_n 512 rfl rfl).symm k) = ix2 j k := funext fun ax => Fin.ext (by
    match ax with
    | ⟨0, _⟩ => exact runDot_rhs0 _ _
    | ⟨1, _⟩ => exact (runDot_rhs1 _ _).trans hk)
  rw [el, er]

theorem outDot_lhs0 (i : S512x64.Idx) (q : dot_S512x4096_S64x4096_S512x64_1_1_0_0_n_n.contr.Idx) : (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem outDot_lhs1 (i : S512x64.Idx) (q : dot_S512x4096_S64x4096_S512x64_1_1_0_0_n_n.contr.Idx) : (dot_S512x4096_S64x4096_S512x64_1_1_0_0_n_n.lhsIdx i q 1).val = (q ⟨0, by decide⟩).val :=
  dot_S512x4096_S64x4096_S512x64_1_1_0_0_n_n.lhsIdx_val_of_single rfl i q
theorem outDot_rhs0 (i : S512x64.Idx) (q : dot_S512x4096_S64x4096_S512x64_1_1_0_0_n_n.contr.Idx) : (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem outDot_rhs1 (i : S512x64.Idx) (q : dot_S512x4096_S64x4096_S512x64_1_1_0_0_n_n.contr.Idx) : (dot_S512x4096_S64x4096_S512x64_1_1_0_0_n_n.rhsIdx i q 1).val = (q ⟨0, by decide⟩).val :=
  dot_S512x4096_S64x4096_S512x64_1_1_0_0_n_n.rhsIdx_val_of_single rfl i q

/-- The output product: row `r` of the [512, 4096] hidden activations against row `e` of the [64, 4096] expert weights. -/
theorem outDot_apply (h : FVec Ideal S512x4096 .f32) (w : FVec Ideal S64x4096 .f32) (r : Fin 512) (e : Fin 64) :
    matmul dot_S512x4096_S64x4096_S512x64_1_1_0_0_n_n none h w (constant (F := Ideal) S512x64 .f32 0x00000000#32) (ix2 r e)
      = ∑ j : Fin 4096, h (ix2 r j) * w (ix2 e j) := by
  refine (Ideal.matmul_constant_zero_apply dot_S512x4096_S64x4096_S512x64_1_1_0_0_n_n none h w (ix2 r e)).trans ?_
  rw [← Equiv.sum_comp (contrEquiv1 dot_S512x4096_S64x4096_S512x64_1_1_0_0_n_n 4096 rfl rfl).symm]
  refine Finset.sum_congr rfl fun k _ => ?_
  have hk := contrEquiv1_symm_val dot_S512x4096_S64x4096_S512x64_1_1_0_0_n_n 4096 rfl rfl k
  have el : dot_S512x4096_S64x4096_S512x64_1_1_0_0_n_n.lhsIdx (ix2 r e) ((contrEquiv1 dot_S512x4096_S64x4096_S512x64_1_1_0_0_n_n 4096 rfl rfl).symm k) = ix2 r k := funext fun ax => Fin.ext (by
    match ax with
    | ⟨0, _⟩ => exact outDot_lhs0 _ _
    | ⟨1, _⟩ => exact (outDot_lhs1 _ _).trans hk)
  have er : dot_S512x4096_S64x4096_S512x64_1_1_0_0_n_n.rhsIdx (ix2 r e) ((contrEquiv1 dot_S512x4096_S64x4096_S512x64_1_1_0_0_n_n 4096 rfl rfl).symm k) = ix2 e k := funext fun ax => Fin.ext (by
    match ax with
    | ⟨0, _⟩ => exact outDot_rhs0 _ _
    | ⟨1, _⟩ => exact (outDot_rhs1 _ _).trans hk)
  rw [el, er]

end Cert.KernelIdeal.Products

end
-- ==== Proof.RouterSpec.lean ====
/-
  The mathematics of a two-layer router, stated once over plain index types, with no program in sight.

  One output element: for a token row `x` (4096 features), hidden weights `w1` (4096 units × 4096 features), hidden bias `b1`,
  one expert's output weights `w2` (4096 units) and that expert's bias `b`,

      twoLayer x w1 b1 w2 b  =  (∑ j, max ((∑ k, x k · w1 j k) + b1 j) 0 · w2 j) + b

  on the extended reals: an inner product per hidden unit, the bias, the positive part, then an inner product over the
  hidden units and the output bias. `logits` is the whole result array: element (p, e) is `twoLayer` of token p's row,
  the hidden layer, and expert e's row and bias.

  The one law needed beyond this definition is a REGROUPING of the inner sum: the 4096 features taken as eight consecutive
  runs of 512, the eight partial sums added from the left. Addition on the extended reals is commutative and associative
  (⊤ + ⊥ = ⊥ does not disturb that), so the regrouping holds for every input, finite or not; it is stated for any
  commutative additive monoid.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Router

/-- One output element of the two-layer router, from the row's features, the hidden layer's weights and bias, the chosen
    expert's output weights and that expert's bias. -/
def twoLayer (x : Fin 4096 → EReal) (w1 : Fin 4096 → Fin 4096 → EReal) (b1 : Fin 4096 → EReal)
    (w2 : Fin 4096 → EReal) (b : EReal) : EReal :=
  (∑ j : Fin 4096, max ((∑ k : Fin 4096, x k * w1 j k) + b1 j) 0 * w2 j) + b

open Idealize.ShloMosaic Idealize.ShloMosaic.ValueIdx in
/-- The router's result at token `p`, expert `e`, from the five argument arrays: token `p`'s row of `x` [16384, 4096], the
    hidden weights `w1` [4096, 4096] (row = hidden unit) and bias `b1` [4096], expert `e`'s row of `w2` [64, 4096] and
    entry of `b2` [64]. -/
def logitsAt (x : (⟨2, ![16384, 4096]⟩ : Shape).Idx → EReal) (w1 : (⟨2, ![4096, 4096]⟩ : Shape).Idx → EReal)
    (b1 : (⟨1, ![4096]⟩ : Shape).Idx → EReal) (w2 : (⟨2, ![64, 4096]⟩ : Shape).Idx → EReal)
    (b2 : (⟨1, ![64]⟩ : Shape).Idx → EReal) (p : Fin 16384) (e : Fin 64) : EReal :=
  twoLayer (fun k => x (ix2 p k)) (fun j k => w1 (ix2 j k)) (fun j => b1 (ix1 j)) (fun j => w2 (ix2 e j)) (b2 (ix1 e))

open Idealize.ShloMosaic Idealize.ShloMosaic.ValueIdx in
/-- The whole [16384, 64] result array. -/
def logits (x : (⟨2, ![16384, 4096]⟩ : Shape).Idx → EReal) (w1 : (⟨2, ![4096, 4096]⟩ : Shape).Idx → EReal)
    (b1 : (⟨1, ![4096]⟩ : Shape).Idx → EReal) (w2 : (⟨2, ![64, 4096]⟩ : Shape).Idx → EReal)
    (b2 : (⟨1, ![64]⟩ : Shape).Idx → EReal) : (⟨2, ![16384, 64]⟩ : Shape).Idx → EReal :=
  fun i => logitsAt x w1 b1 w2 b2 (i 0) (i 1)

/-- A sum over 4096 terms is the sum over 8 runs of the sums over each run's 512 terms: the index `512·s + k` runs over
    `Fin 4096` exactly once as `(s, k)` runs over `Fin 8 × Fin 512`. -/
theorem sum_runs {M : Type*} [AddCommMonoid M] (f : Fin 4096 → M) :
    ∑ k : Fin 4096, f k
      = ∑ s : Fin 8, ∑ k : Fin 512, f ⟨512 * s.val + k.val, by have := s.isLt; have := k.isLt; omega⟩ := by
  rw [← Fintype.sum_prod_type']
  refine (Fintype.sum_equiv (finProdFinEquiv (m := 8) (n := 512)) _ f fun x => congrArg f (Fin.ext ?_)).symm
  show 512 * x.1.val + x.2.val = x.2.val + 512 * x.1.val
  omega

/-- The same with the eight runs written out, added from the left, each run named by its first feature
    (0, 512, …, 3584). -/
theorem sum_eight_runs {M : Type*} [AddCommMonoid M] (f : Fin 4096 → M) :
    ∑ k : Fin 4096, f k
      = (∑ k : Fin 512, f ⟨0 + k.val, by have := k.isLt; omega⟩)
        + (∑ k : Fin 512, f ⟨512 + k.val, by have := k.isLt; omega⟩)
        + (∑ k : Fin 512, f ⟨1024 + k.val, by have := k.isLt; omega⟩)
        + (∑ k : Fin 512, f ⟨1536 + k.val, by have := k.isLt; omega⟩)
        + (∑ k : Fin 512, f ⟨2048 + k.val, by have := k.isLt; omega⟩)
        + (∑ k : Fin 512, f ⟨2560 + k.val, by have := k.isLt; omega⟩)
        + (∑ k : Fin 512, f ⟨3072 + k.val, by have := k.isLt; omega⟩)
        + (∑ k : Fin 512, f ⟨3584 + k.val, by have := k.isLt; omega⟩) :=
  (sum_runs f).trans (Fin.sum_univ_eight
    (fun s : Fin 8 => ∑ k : Fin 512, f ⟨512 * s.val + k.val, by have := s.isLt; have := k.isLt; omega⟩))

end Cert.Router

end
-- ==== Proof.BlockValue.lean ====
/-
  What the kernel's body stores, read at one element of its [512, 64] output block.

  The body forms, for row `r` of its token block and hidden unit `j`, eight inner products over consecutive runs of 512
  features — run `s` pairs features 512·s … 512·s+511 of the row with the same features of unit `j`'s weights —, adds them
  from the left, adds the unit's bias, takes the positive part, and then, for expert `e`, the inner product over all 4096
  hidden units with the expert's weights, plus the expert's bias. A change of float format is the identity on extended
  reals, and a recast of a block to its own shape changes nothing.

  By the regrouping law (eight runs of 512 are one sum over 4096) the stored element is `Cert.Router.twoLayer` of the
  block's row `r`, the weight blocks and the biases' single rows.
-/
import proofs.«107676_g90228672954960_cont_9to1c4b_381_14_alg».proof.Proof.Products
import proofs.«107676_g90228672954960_cont_9to1c4b_381_14_alg».proof.Proof.RouterSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Cert.KernelIdeal.Products Idealize.ShloMosaic Idealize.ShloMosaic.ValueIdx Cert.Router

theorem hz : (![0, 0] : Fin 2 → Nat) = fun _ => 0 := funext fun a => by fin_cases a <;> rfl

/-- The zero word is the extended real 0. -/
theorem zero_word : (Scalar.ofBits (F := Ideal) .f32 0x00000000#32 : EReal) = 0 := Ideal.ofBits_zero_f32

/-! ## The body's arithmetic at an element -/

/-- The sixth run's features, rounded to bf16 before the other loads of that run: unchanged on extended reals. -/
theorem sixthRun_apply (v : Vec Ideal S512x512 .f32) (i : S512x512.Idx) : k0_pay3 v i = v i := rfl

/-- The first five runs' products, added from the left, at row `r` and hidden unit `j`. -/
theorem firstFive_apply (v0 : Vec Ideal S512x512 .f32) (v2 : Vec Ideal S4096x512 .bf16) (v5 : Vec Ideal S512x512 .f32) (v7 : Vec Ideal S4096x512 .bf16)
    (v11 : Vec Ideal S512x512 .f32) (v13 : Vec Ideal S4096x512 .bf16) (v17 : Vec Ideal S512x512 .f32) (v19 : Vec Ideal S4096x512 .bf16)
    (v23 : Vec Ideal S512x512 .f32) (v25 : Vec Ideal S4096x512 .bf16) (r : Fin 512) (j : Fin 4096) :
    k0_pay2 v0 v2 v5 v7 v11 v13 v17 v19 v23 v25 (ix2 r j)
      = (∑ k : Fin 512, v0 (ix2 r k) * v2 (ix2 j k)) + (∑ k : Fin 512, v5 (ix2 r k) * v7 (ix2 j k))
        + (∑ k : Fin 512, v11 (ix2 r k) * v13 (ix2 j k)) + (∑ k : Fin 512, v17 (ix2 r k) * v19 (ix2 j k))
        + (∑ k : Fin 512, v23 (ix2 r k) * v25 (ix2 j k)) := by
  unfold k0_pay2
  simp only [addf_apply, shapeCast_self, runDot_apply, truncf_apply]

/-- The stored element at row `r`, expert `e`: over the hidden units, the positive part of (the five runs so far, plus the last
    three runs' products, plus the unit's bias) times the expert's weight, plus the expert's bias. -/
theorem stored_apply (v28 : FVec Ideal S512x4096 .f32) (v30 : FVec Ideal S512x512 .bf16) (v31 : Vec Ideal S4096x512 .bf16)
    (v35 : Vec Ideal S512x512 .f32) (v37 : Vec Ideal S4096x512 .bf16) (v41 : Vec Ideal S512x512 .f32) (v43 : Vec Ideal S4096x512 .bf16)
    (v47 : Vec Ideal S1x4096 .f32) (v53 : Vec Ideal S64x4096 .f32) (v55 : Vec Ideal S1x64 .f32) (r : Fin 512) (e : Fin 64) :
    k0_pay1 v28 v30 v31 v35 v37 v41 v43 v47 v53 v55 (ix2 r e)
      = (∑ j : Fin 4096, max ((v28 (ix2 r j) + (∑ k : Fin 512, v30 (ix2 r k) * v31 (ix2 j k))
            + (∑ k : Fin 512, v35 (ix2 r k) * v37 (ix2 j k)) + (∑ k : Fin 512, v41 (ix2 r k) * v43 (ix2 j k)))
            + v47 (ix2 (0 : Fin 1) j)) 0 * v53 (ix2 e j)) + v55 (ix2 (0 : Fin 1) e) := by
  unfold k0_pay1
  simp only [addf_apply, shapeCast_self, outDot_apply, broadcastTo_1b_ab_apply, maximumf_apply, broadcast_apply, runDot_apply,
    truncf_apply, zero_word]

/-! ## A run of 512 features read out of a block -/

/-- Features `o … o+511` of row `r` of the [512, 4096] token block. -/
theorem ld_features (x0 : Vec Ideal S512x4096 .f32) (o : Nat) (inb : ∀ a, (![0, o] : Fin 2 → Nat) a + S512x512.size a ≤ S512x4096.size a)
    (r k : Fin 512) :
    View.ld x0 (Rect.unit (s := S512x4096) ![0, o] S512x512.size inb) (ix2 r k)
      = x0 (ix2 r ⟨o + k.val, by have h : o + 512 ≤ 4096 := inb 1; have := k.isLt; omega⟩) := by
  show x0 _ = x0 _
  refine congrArg x0 (funext fun ax => Fin.ext ?_)
  match ax with
  | ⟨0, _⟩ => show 0 + 1 * r.val = r.val; omega
  | ⟨1, _⟩ => show o + 1 * k.val = o + k.val; omega

/-- Features `o … o+511` of hidden unit `j`'s row of the [4096, 4096] weight block. -/
theorem ld_weights (x1 : Vec Ideal S4096x4096 .bf16) (o : Nat) (inb : ∀ a, (![0, o] : Fin 2 → Nat) a + S4096x512.size a ≤ S4096x4096.size a)
    (j : Fin 4096) (k : Fin 512) :
    View.ld x1 (Rect.unit (s := S4096x4096) ![0, o] S4096x512.size inb) (ix2 j k)
      = x1 (ix2 j ⟨o + k.val, by have h : o + 512 ≤ 4096 := inb 1; have := k.isLt; omega⟩) := by
  show x1 _ = x1 _
  refine congrArg x1 (funext fun ax => Fin.ext ?_)
  match ax with
  | ⟨0, _⟩ => show 0 + 1 * j.val = j.val; omega
  | ⟨1, _⟩ => show o + 1 * k.val = o + k.val; omega

/-- One run's inner product, its two loads read out of the blocks. -/
theorem run_sum (x0 : Vec Ideal S512x4096 .f32) (x1 : Vec Ideal S4096x4096 .bf16) (o : Nat)
    (inbx : ∀ a, (![0, o] : Fin 2 → Nat) a + S512x512.size a ≤ S512x4096.size a)
    (inbw : ∀ a, (![0, o] : Fin 2 → Nat) a + S4096x512.size a ≤ S4096x4096.size a) (r : Fin 512) (j : Fin 4096) :
    (∑ k : Fin 512, View.ld x0 (Rect.unit (s := S512x4096) ![0, o] S512x512.size inbx) (ix2 r k)
        * View.ld x1 (Rect.unit (s := S4096x4096) ![0, o] S4096x512.size inbw) (ix2 j k))
      = ∑ k : Fin 512, x0 (ix2 r ⟨o + k.val, by have h : o + 512 ≤ 4096 := inbx 1; have := k.isLt; omega⟩)
          * x1 (ix2 j ⟨o + k.val, by have h : o + 512 ≤ 4096 := inbx 1; have := k.isLt; omega⟩) :=
  Finset.sum_congr rfl fun k _ => congrArg₂ (· * ·) (ld_features x0 o inbx r k) (ld_weights x1 o inbw j k)

/-! ## The stored element is the two-layer value of the blocks -/

/-- Element (r, e) of what the body leaves in the output block, from the five input blocks. -/
theorem block_apply (x0 : Vec Ideal S512x4096 .f32) (x1 : Vec Ideal S4096x4096 .bf16) (x2 : Vec Ideal S1x4096 .f32)
    (x3 : Vec Ideal S64x4096 .f32) (x4 : Vec Ideal S1x64 .f32) (r : Fin 512) (e : Fin 64) :
    out0_5 x0 x1 x2 x3 x4 (ix2 r e)
      = twoLayer (fun k => x0 (ix2 r k)) (fun j k => x1 (ix2 j k)) (fun j => x2 (ix2 (0 : Fin 1) j)) (fun j => x3 (ix2 e j))
          (x4 (ix2 (0 : Fin 1) e)) := by
  unfold out0_5
  rw [View.canon_unit_zero hz]
  simp only [View.ld_unit_zero (S := S1x4096) hz, View.ld_unit_zero (S := S64x4096) hz, View.ld_unit_zero (S := S1x64) hz]
  refine (stored_apply _ _ _ _ _ _ _ _ _ _ r e).trans ?_
  unfold twoLayer
  refine congrArg₂ (· + ·) (Finset.sum_congr rfl fun j _ => ?_) rfl
  refine congrArg (fun s => max (s + x2 (ix2 (0 : Fin 1) j)) 0 * x3 (ix2 e j)) ?_
  rw [firstFive_apply, sum_eight_runs (fun k => x0 (ix2 r k) * x1 (ix2 j k))]
  refine congrArg₂ (· + ·) ?_ (run_sum x0 x1 3584 _ _ r j)
  refine congrArg₂ (· + ·) ?_ (run_sum x0 x1 3072 _ _ r j)
  refine congrArg₂ (· + ·) ?_ (run_sum x0 x1 2560 _ _ r j)
  refine congrArg₂ (· + ·) ?_ (run_sum x0 x1 2048 _ _ r j)
  refine congrArg₂ (· + ·) ?_ (run_sum x0 x1 1536 _ _ r j)
  refine congrArg₂ (· + ·) ?_ (run_sum x0 x1 1024 _ _ r j)
  refine congrArg₂ (· + ·) ?_ (run_sum x0 x1 512 _ _ r j)
  exact run_sum x0 x1 0 _ _ r j

end Cert.KernelIdeal.Block

end
-- ==== Proof.ArrayValue.lean ====
/-
  From the kernel's blocks to its result array.

  The grid has 32 points; point `t` works on tokens 512·t … 512·t+511. Its token block is rows 512·t … of `x`; the other four
  windows always show their whole arrays: the hidden weights (rounded to bf16 by the host before the call — the identity
  on extended reals), the two biases (each recast by the host from a vector to a single row) and the expert weights. So
  element (r, e) of the block that point `t` writes back is `logitsAt` of the ARGUMENTS at token 512·t + r and expert `e`:
  the block is block `t` of the one array `logits`. The 32 output blocks tile the [16384, 64] result (token `p` lies in
  block `p / 512`), so after the run the result array is `logits` of the arguments.
-/
import proofs.«107676_g90228672954960_cont_9to1c4b_381_14_alg».proof.Proof.Gen.KernelIdeal.Value
import proofs.«107676_g90228672954960_cont_9to1c4b_381_14_alg».proof.Proof.BlockValue
import Idealize.ShloMosaic.Lib.Pipeline.Value
import Idealize.ShloMosaic.Lib.StableHlo.Run
import Idealize.ShloMosaic.Lib.ValueIdx
import Idealize.ShloMosaic.Lib.ValueLayout

noncomputable section

open scoped BigOperators

namespace Cert.KernelIdeal.ArrayValue

open Cert.KernelIdeal Cert.KernelIdeal.Gen Cert.KernelIdeal.Value Cert.KernelIdeal.Block Idealize.ShloMosaic Idealize.ShloMosaic.TcCoe
  Idealize.SL.Sem Idealize.ShloMosaic.ValueIdx Idealize.ShloMosaic.StableHlo Cert.Router
open Idealize.ShloMosaic.Pipeline (Dat)

variable (m : (ℓ : Loc nD τ sig) → Buf (Elt Ideal) ℓ) (ρ : Dev nD → PrngReg)

/-! ## The arrays the host prepares before the call -/

/-- The hidden weights rounded to bf16 are, as extended reals, the hidden weights. -/
theorem V_w1 (c : Dev nD) :
    (V m c main_v0 : S4096x4096.Idx → EReal) = (m ((c : Thread nD τ).loc main_arg1) : S4096x4096.Idx → EReal) := by
  dsimp only [Gen.V, Gen.hostOps0]; after_results; rfl

/-- The hidden bias recast to one row [1, 4096]: entry (0, j) is entry j. -/
theorem V_b1 (c : Dev nD) (u : Fin 1) (j : Fin 4096) :
    (V m c main_v1 : S1x4096.Idx → EReal) (ix2 u j) = (m ((c : Thread nD τ).loc main_arg2) : S4096.Idx → EReal) (ix1 j) := by
  have e : (V m c main_v1 : S1x4096.Idx → EReal)
      = shapeCast S1x4096 (m ((c : Thread nD τ).loc main_arg2) : S4096.Idx → EReal) Facts₀.shapeCasts_S4096_S1x4096 := by
    dsimp only [Gen.V, Gen.hostOps0]; after_results; rfl
  rw [e]
  exact shapeCast_a_1a_apply _ _ u j

/-- The expert bias recast to one row [1, 64]: entry (0, e) is entry e. -/
theorem V_b2 (c : Dev nD) (u : Fin 1) (e : Fin 64) :
    (V m c main_v2 : S1x64.Idx → EReal) (ix2 u e) = (m ((c : Thread nD τ).loc main_arg4) : S64.Idx → EReal) (ix1 e) := by
  have h : (V m c main_v2 : S1x64.Idx → EReal)
      = shapeCast S1x64 (m ((c : Thread nD τ).loc main_arg4) : S64.Idx → EReal) Facts₀.shapeCasts_S64_S1x64 := by
    dsimp only [Gen.V, Gen.hostOps0]; after_results; rfl
  rw [h]
  exact shapeCast_a_1a_apply _ _ u e

/-! ## Where each window's block sits, decided over the 32 grid points -/

/-- The token block and the output block move together down the rows; every other block is the whole array. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 31 ∧ win0_5.index t (1 : Fin 2) = 0 :=
  (by decide +kernel : ∀ t : Fin grid0.N, _)

/-- Every one of the 32 row blocks of the result is some point's. -/
theorem idx_onto : ∀ q : Fin 32, ∃ t : Fin cfg0.N, win0_5.index t = ![q.val, 0] :=
  (by decide +kernel : ∀ q : Fin 32, ∃ t : Fin grid0.N, win0_5.index t = ![q.val, 0])

/-! ## Each input block read at an element, as the argument it shows -/

/-- Row `r` of point `t`'s token block is token `p = 512·t + r`'s row of `x`. -/
theorem read_x (c : Dev nD) (t : Fin cfg0.N) (r : Fin 512) (k : Fin 4096) (p : Fin 16384)
    (hp : p.val = win0_5.index t (0 : Fin 2) * 512 + r.val) :
    (iblk m c 0 t : Vec Ideal S512x4096 .f32) (ix2 r k) = (m ((c : Thread nD τ).loc main_arg0) : S16384x4096.Idx → EReal) (ix2 p k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = p.val; omega
  | ⟨1, _⟩ => show win0_0.index t (1 : Fin 2) * 4096 + 1 * k.val = k.val; omega

/-- The hidden-weight block is the whole weight array. -/
theorem read_w1 (c : Dev nD) (t : Fin cfg0.N) (j k : Fin 4096) :
    (iblk m c 1 t : Vec Ideal S4096x4096 .bf16) (ix2 j k) = (m ((c : Thread nD τ).loc main_arg1) : S4096x4096.Idx → EReal) (ix2 j k) := by
  obtain ⟨-, -, e2, e3, -⟩ := idx_facts t
  show (V m c main_v0 : S4096x4096.Idx → EReal) (((cfg0.win 1).blk t).view.emb (ix2 j k)) = _
  rw [V_w1]
  refine congrArg _ (funext fun a => Fin.ext ?_)
  match a with
  | ⟨0, _⟩ => show win0_1.index t (0 : Fin 2) * 4096 + 1 * j.val = j.val; omega
  | ⟨1, _⟩ => show win0_1.index t (1 : Fin 2) * 4096 + 1 * k.val = k.val; omega

/-- The hidden-bias block is the bias's one row. -/
theorem read_b1 (c : Dev nD) (t : Fin cfg0.N) (j : Fin 4096) :
    (iblk m c 2 t : Vec Ideal S1x4096 .f32) (ix2 (0 : Fin 1) j) = (m ((c : Thread nD τ).loc main_arg2) : S4096.Idx → EReal) (ix1 j) := by
  obtain ⟨-, -, -, -, e4, e5, -⟩ := idx_facts t
  show (V m c main_v1 : S1x4096.Idx → EReal) (((cfg0.win 2).blk t).view.emb (ix2 (0 : Fin 1) j)) = _
  refine Eq.trans (congrArg _ (funext fun a => Fin.ext ?_)) (V_b1 m c 0 j)
  match a with
  | ⟨0, _⟩ => show win0_2.index t (0 : Fin 2) * 1 + 1 * 0 = 0; omega
  | ⟨1, _⟩ => show win0_2.index t (1 : Fin 2) * 4096 + 1 * j.val = j.val; omega

/-- The expert-weight block is the whole weight array. -/
theorem read_w2 (c : Dev nD) (t : Fin cfg0.N) (e : Fin 64) (j : Fin 4096) :
    (iblk m c 3 t : Vec Ideal S64x4096 .f32) (ix2 e j) = (m ((c : Thread nD τ).loc main_arg3) : S64x4096.Idx → EReal) (ix2 e j) := by
  obtain ⟨-, -, -, -, -, -, e6, e7, -⟩ := idx_facts t
  show V m c main_arg3 (((cfg0.win 3).blk t).view.emb (ix2 e j)) = _
  rw [V_main_arg3]
  refine congrArg _ (funext fun a => Fin.ext ?_)
  match a with
  | ⟨0, _⟩ => show win0_3.index t (0 : Fin 2) * 64 + 1 * e.val = e.val; omega
  | ⟨1, _⟩ => show win0_3.index t (1 : Fin 2) * 4096 + 1 * j.val = j.val; omega

/-- The expert-bias block is the bias's one row. -/
theorem read_b2 (c : Dev nD) (t : Fin cfg0.N) (e : Fin 64) :
    (iblk m c 4 t : Vec Ideal S1x64 .f32) (ix2 (0 : Fin 1) e) = (m ((c : Thread nD τ).loc main_arg4) : S64.Idx → EReal) (ix1 e) := by
  obtain ⟨-, -, -, -, -, -, -, -, e8, e9, -⟩ := idx_facts t
  show (V m c main_v2 : S1x64.Idx → EReal) (((cfg0.win 4).blk t).view.emb (ix2 (0 : Fin 1) e)) = _
  refine Eq.trans (congrArg _ (funext fun a => Fin.ext ?_)) (V_b2 m c 0 e)
  match a with
  | ⟨0, _⟩ => show win0_4.index t (0 : Fin 2) * 1 + 1 * 0 = 0; omega
  | ⟨1, _⟩ => show win0_4.index t (1 : Fin 2) * 64 + 1 * e.val = e.val; omega

/-! ## What point `t` writes back is block `t` of `logits` -/

/-- Element (r, e) of the block point `t` leaves, against `logits` of the arguments at the element's place in the array. -/
theorem flushed_at (c : Dev nD) (t : Fin cfg0.N) (r : Fin 512) (e : Fin 64) :
    out0_5 (iblk m c 0 t) (iblk m c 1 t) (iblk m c 2 t) (iblk m c 3 t) (iblk m c 4 t) (ix2 r e)
      = logits (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 r e)) := by
  obtain ⟨-, -, -, -, -, -, -, -, -, -, e10, e11⟩ := idx_facts t
  have hp : win0_5.index t (0 : Fin 2) * 512 + r.val < 16384 := by have := r.isLt; omega
  have hi : ((cfg0.win 5).blk t).view.emb (ix2 r e) = ix2 (⟨win0_5.index t (0 : Fin 2) * 512 + r.val, hp⟩ : Fin 16384) e :=
    funext fun a => Fin.ext (by
      match a with
      | ⟨0, _⟩ => show win0_5.index t (0 : Fin 2) * 512 + 1 * r.val = win0_5.index t (0 : Fin 2) * 512 + r.val; omega
      | ⟨1, _⟩ => show win0_5.index t (1 : Fin 2) * 64 + 1 * e.val = e.val; omega)
  rw [hi]
  refine (block_apply _ _ _ _ _ r e).trans ?_
  show _ = logitsAt _ _ _ _ _ (⟨win0_5.index t (0 : Fin 2) * 512 + r.val, hp⟩ : Fin 16384) e
  unfold logitsAt
  have h0 : (fun k => (iblk m c 0 t : Vec Ideal S512x4096 .f32) (ix2 r k))
      = fun k => (m ((c : Thread nD τ).loc main_arg0) : S16384x4096.Idx → EReal) (ix2 (⟨win0_5.index t (0 : Fin 2) * 512 + r.val, hp⟩ : Fin 16384) k) :=
    funext fun k => read_x m c t r k _ rfl
  have h1 : (fun j k => (iblk m c 1 t : Vec Ideal S4096x4096 .bf16) (ix2 j k))
      = fun j k => (m ((c : Thread nD τ).loc main_arg1) : S4096x4096.Idx → EReal) (ix2 j k) :=
    funext fun j => funext fun k => read_w1 m c t j k
  have h2 : (fun j => (iblk m c 2 t : Vec Ideal S1x4096 .f32) (ix2 (0 : Fin 1) j))
      = fun j => (m ((c : Thread nD τ).loc main_arg2) : S4096.Idx → EReal) (ix1 j) :=
    funext fun j => read_b1 m c t j
  have h3 : (fun j => (iblk m c 3 t : Vec Ideal S64x4096 .f32) (ix2 e j))
      = fun j => (m ((c : Thread nD τ).loc main_arg3) : S64x4096.Idx → EReal) (ix2 e j) :=
    funext fun j => read_w2 m c t e j
  rw [h0, h1, h2, h3, read_b2 m c t e]

theorem flushed_eq (c : Dev nD) (t : Fin cfg0.N) :
    (dats m 0 c).flushed 5 t = ((cfg0.win 5).blk t).view.read (Elt Ideal) (logits (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed5]
  funext y
  show out0_5 (iblk m c 0 t) (iblk m c 1 t) (iblk m c 2 t) (iblk m c 3 t) (iblk m c 4 t) y
    = logits (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y)
  have hy : y = ix2 (y 0) (y 1) := eq_ix2 (n0 := 512) (n1 := 64) y
  rw [hy]
  exact flushed_at m c t (y 0) (y 1)

/-! ## The 32 blocks tile the result -/

/-- An index of the result is in point `t`'s block iff each coordinate is in the block's range on its axis. -/
theorem mem_blk (t : Fin cfg0.N) (i : S16384x64.Idx) :
    i ∈ ((cfg0.win 5).blk t).view.set ↔ ∀ a : Fin 2, win0_5.index t a * S512x64.size a ≤ (i a).val ∧ (i a).val < win0_5.index t a * S512x64.size a + S512x64.size a := by
  show i ∈ ((View.whole main_v3).slice (win0_5.rect t)).set ↔ _
  rw [View.set_slice_whole, Rect.mem_set_unit]
  exact Iff.rfl

/-- Token `p`'s row of the result lies in block `p / 512`. -/
theorem cover (i : S16384x64.Idx) : ∃ t : Fin cfg0.N, (cfg0.win 5).flush t = true ∧ i ∈ ((cfg0.win 5).blk t).view.set := by
  have hi0 : (i 0).val < 16384 := (i 0).isLt
  have hi1 : (i 1).val < 64 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 64 ≤ (i 1).val ∧ (i 1).val < win0_5.index t (1 : Fin 2) * 64 + 64; omega

/-- The result array after the run is `logits` of the arguments. -/
theorem final (c : Dev nD) : (dats m 0 c).arrAt 5 cfg0.N = logits (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (logits (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-! ## The run, read -/

/-- Every weakly fair execution of the kernel's program terminates with the result array at `logits` of the arguments and the
    arguments unchanged. -/
theorem run : θ_run defs (onTc (τ := τ) (main (F := Ideal))) ⟨m, fun _ => 0, ρ⟩ fun r => ∀ c : Dev nD,
      r.2.mem ((c : Thread nD τ).loc main_v3) = logits (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.RefValue.lean ====
/-
  The reference computes the router's result array.

  Its host program transposes the hidden weights, takes the [16384, 4096] × [4096, 4096] product, adds the hidden bias
  broadcast over the tokens, takes the maximum with a zero array, transposes the expert weights, takes the
  [16384, 4096] × [4096, 64] product and adds the expert bias broadcast over the tokens. Read one operation at a time at
  element (p, e): the transposes turn "column j of the transposed weights" back into "row j of the weights", the
  broadcasts read the bias at its one coordinate, and what is left is `Cert.Router.logitsAt` — the same two nested sums.
-/
import proofs.«107676_g90228672954960_cont_9to1c4b_381_14_alg».proof.Proof.Gen.ReferenceIdeal.Read
import proofs.«107676_g90228672954960_cont_9to1c4b_381_14_alg».proof.Proof.RouterSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Router

/-! ## Where each operation reads its operands, at element (p, e) and inner coordinates j, k -/

theorem out_lhs (p : Fin 16384) (e : Fin 64) (j : Fin 4096) : lidx_main_v7 (ix2 p e) j = ix2 p j :=
  funext fun a => Fin.ext (by match a with | ⟨0, _⟩ => rfl | ⟨1, _⟩ => rfl)
theorem out_rhs (p : Fin 16384) (e : Fin 64) (j : Fin 4096) : idx_main_v6 (ridx_main_v7 (ix2 p e) j) = ix2 e j :=
  funext fun a => Fin.ext (by match a with | ⟨0, _⟩ => rfl | ⟨1, _⟩ => rfl)
theorem hid_lhs (p : Fin 16384) (j k : Fin 4096) : lidx_main_v1 (ix2 p j) k = ix2 p k :=
  funext fun a => Fin.ext (by match a with | ⟨0, _⟩ => rfl | ⟨1, _⟩ => rfl)
theorem hid_rhs (p : Fin 16384) (j k : Fin 4096) : idx_main_v0 (ridx_main_v1 (ix2 p j) k) = ix2 j k :=
  funext fun a => Fin.ext (by match a with | ⟨0, _⟩ => rfl | ⟨1, _⟩ => rfl)
theorem hid_bias (p : Fin 16384) (j : Fin 4096) : idx_main_v2 (idx_main_v3 (ix2 p j)) = ix1 j :=
  funext fun a => Fin.ext (by match a with | ⟨0, _⟩ => rfl)
theorem out_bias (p : Fin 16384) (e : Fin 64) : idx_main_v8 (idx_main_v9 (ix2 p e)) = ix1 e :=
  funext fun a => Fin.ext (by match a with | ⟨0, _⟩ => rfl)

/-! ## The reference's result is `logits` of its arguments -/

theorem result_eq (x0 : (⟨S16384x4096, .f32⟩ : BufTy).Contents (Elt Ideal)) (x1 : (⟨S4096x4096, .f32⟩ : BufTy).Contents (Elt Ideal))
    (x2 : (⟨S4096, .f32⟩ : BufTy).Contents (Elt Ideal)) (x3 : (⟨S64x4096, .f32⟩ : BufTy).Contents (Elt Ideal))
    (x4 : (⟨S64, .f32⟩ : BufTy).Contents (Elt Ideal)) :
    val_main_v10 (F := Ideal) x0 x1 x2 x3 x4 = logits x0 x1 x2 x3 x4 := by
  funext i
  obtain ⟨p, e, rfl⟩ : ∃ (p : Fin 16384) (e : Fin 64), i = ix2 p e := ⟨i 0, i 1, eq_ix2 i⟩
  rw [val_main_v10_apply, val_main_v7_apply, val_main_v9_apply, val_main_v8_apply, out_bias]
  show _ = logitsAt x0 x1 x2 x3 x4 p e
  unfold logitsAt twoLayer
  refine congrArg₂ (· + ·) (Finset.sum_congr rfl fun j _ => ?_) rfl
  rw [val_main_v6_apply, out_rhs, out_lhs, val_main_v5_apply, val_main_v4_apply, val_main_v1_apply, val_main_v3_apply, val_main_v2_apply,
    hid_bias, val_main_call0_v0_apply, val_main_call0_cst_apply, Ideal.maximumf_def, Ideal.addf_def, Ideal.ofBits_def,
    Ideal.ofBits_zero_f32]
  show max ((∑ k : Fin 4096, x0 (lidx_main_v1 (ix2 p j) k) * val_main_v0 (F := Ideal) x1 (ridx_main_v1 (ix2 p j) k)) + x2 (ix1 j)) 0 * x3 (ix2 e j)
    = max ((∑ k : Fin 4096, x0 (ix2 p k) * x1 (ix2 j k)) + x2 (ix1 j)) 0 * x3 (ix2 e j)
  refine congrArg (fun s => max (s + x2 (ix1 j)) 0 * x3 (ix2 e j)) (Finset.sum_congr rfl fun k _ => ?_)
  rw [val_main_v0_apply, hid_rhs, hid_lhs]

end Cert.ReferenceIdeal.RefValue

end
-- ==== Proof.lean ====
/-
  A two-layer router kernel against its plain array reference: both compute

      logits[p, e] = (∑ j, max ((∑ k, x[p, k] · W1[j, k]) + b1[j]) 0 · W2[e, j]) + b2[e]

  for 16384 tokens, 4096 features, 4096 hidden units and 64 experts, on the extended reals.

  The kernel works on 512 tokens per grid point. It takes the inner sum over the 4096 features as eight consecutive runs
  of 512, one matrix product per run, and adds the eight partial products from the left; it rounds the token features and
  the hidden weights to bf16 on the way into those products, which changes nothing on extended reals; both of its matrix
  products contract the last axis of both operands, so the weights are used row by row as given. The reference transposes
  both weight arrays and contracts once over all 4096 features. The two agree because a sum over 4096 terms is the sum of
  its eight runs of 512 (addition on the extended reals is commutative and associative, so no finiteness of the inputs is
  used), because a transposed operand read at (k, j) is the operand at (j, k), and because a bias recast to a single row
  or broadcast over the tokens reads its one coordinate.

  `RouterSpec` states the function and the regrouping law; `Products` reads the kernel's two matrix products at an
  element; `BlockValue` reads what the body stores in its output block; `ArrayValue` shows the 32 blocks are the blocks
  of one array, `logits` of the arguments, and tile the result; `RefValue` reads the reference's operations at an
  element and finds the same function. The idealized kernel is the kernel's own text read on extended reals (nothing was
  rewritten), and the three frames are the programs' runs with the values forgotten.
-/
import proofs.«107676_g90228672954960_cont_9to1c4b_381_14_alg».proof.Defs
import proofs.«107676_g90228672954960_cont_9to1c4b_381_14_alg».proof.Proof.Gen.Kernel
import proofs.«107676_g90228672954960_cont_9to1c4b_381_14_alg».proof.Proof.Gen.Kernel.Frame
import proofs.«107676_g90228672954960_cont_9to1c4b_381_14_alg».proof.Proof.Gen.KernelIdeal
import proofs.«107676_g90228672954960_cont_9to1c4b_381_14_alg».proof.Proof.Gen.KernelIdeal.Frame
import proofs.«107676_g90228672954960_cont_9to1c4b_381_14_alg».proof.Proof.Gen.KernelIdeal.Value
import proofs.«107676_g90228672954960_cont_9to1c4b_381_14_alg».proof.Proof.Gen.ReferenceIdeal
import proofs.«107676_g90228672954960_cont_9to1c4b_381_14_alg».proof.Proof.Gen.ReferenceIdeal.Run
import proofs.«107676_g90228672954960_cont_9to1c4b_381_14_alg».proof.Proof.Gen.ReferenceIdeal.Read
import proofs.«107676_g90228672954960_cont_9to1c4b_381_14_alg».proof.Proof.Gen.Pre_finite_inputs
import proofs.«107676_g90228672954960_cont_9to1c4b_381_14_alg».proof.Proof.ArrayValue
import proofs.«107676_g90228672954960_cont_9to1c4b_381_14_alg».proof.Proof.RefValue

noncomputable section

namespace Cert.Proof

open Idealize.ShloMosaic Idealize.ShloMosaic.TcCoe Idealize.SL.Sem Cert.Router

/-- The kernel as printed runs to the end and leaves its arguments alone. -/
theorem frame_kernel : Cert.frame_Kernel := fun m ρ _ => Cert.Kernel.Gen.frame m ρ

/-- So does the kernel read on extended reals. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on extended reals. -/
theorem preserves : Cert.preserves_Kernel_KernelIdeal := trivial

/-- From arguments that agree, the kernel's result array and the reference's are both `logits` of those arguments. -/
theorem algebraic : Cert.algebraic_KernelIdeal_ReferenceIdeal := by
  intro m ρ m' ρ' _ hagree
  refine ⟨fun c => logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
